-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x12 : Shape := ⟨2, ![10000, 12]⟩
abbrev S10000x10000 : Shape := ⟨2, ![10000, 10000]⟩
abbrev S12x16 : Shape := ⟨2, ![12, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S_ : Shape := ⟨0, ![]⟩

class Facts : Prop where
  bcast_S_S10000x12 : S_.BroadcastsInDim S10000x12 (![] : Fin 0 → Fin S10000x12.rank)
  reducesTo_S10000x12_S_d0_1 : S10000x12.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S12x16 : S_.BroadcastsInDim S12x16 (![] : Fin 0 → Fin S12x16.rank)
  reducesTo_S12x16_S_d0_1 : S12x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12 .f32) (main_v33 : IVec S_ 1) : IVec S_ 1 :=
  let main_v34 : FVec F S12 .f32 := Host.absf main_arg7
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x12 .f32) (main_arg7 : FVec F S12 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x12 .f32 := Host.absf main_arg6
  let main_cst_10 : FVec F S_ .f32 := constant S_ .f32 0x7F800000#32
  let main_v30 : FVec F S16x12 .f32 := broadcastInDim S16x12 ![] bcast_S_S16x12 main_cst_10
  let main_v31 : IVec S16x12 1 := cmpf .olt main_v29 main_v30
  let main_c_11 : IVec S_ 1 := constantI S_ 1 1#1
  let main_v32 : IVec S_ 1 := (fun x v => Host.reduce IntOp.andi x v reducesTo_S16x12_S_d0_1 h_S_) main_v31 main_c_11
  let main_v33 : IVec S_ 1 := andi main_v28 main_v32
  fn_part2 (F := F) main_arg7 main_v33

def fn {F : FTy → Type} [FloatOps F] (main_arg0 : FVec F S10000x12 .f32) (main_arg1 : FVec F S10000x10000 .f32) (main_arg2 : FVec F S12x16 .f32) (main_arg3 : FVec F S16 .f32) (main_arg4 : FVec F S16x16 .f32) (main_arg5 : FVec F S16 .f32) (main_arg6 : FVec F S16x12 .f32) (main_arg7 : FVec F S12 .f32) : IVec S_ 1 :=
  let main_v0 : FVec F S10000x12 .f32 := Host.absf main_arg0
  let main_cst : FVec F S_ .f32 := constant S_ .f32 0x7F800000#32
  let main_v1 : FVec F S10000x12 .f32 := broadcastInDim S10000x12 ![] bcast_S_S10000x12 main_cst
  let main_v2 : IVec S10000x12 1 := cmpf .olt main_v0 main_v1
  let main_c : IVec S_ 1 := constantI S_ 1 1#1
  let main_v3 : IVec S_ 1 := (fun x v => Host.reduce IntOp.andi x v reducesTo_S10000x12_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S12x16 .f32 := Host.absf main_arg2
  let main_cst_2 : FVec F S_ .f32 := constant S_ .f32 0x7F800000#32
  let main_v10 : FVec F S12x16 .f32 := broadcastInDim S12x16 ![] bcast_S_S12x16 main_cst_2
  let main_v11 : IVec S12x16 1 := cmpf .olt main_v9 main_v10
  let main_c_3 : IVec S_ 1 := constantI S_ 1 1#1
  let main_v12 : IVec S_ 1 := (fun x v => Host.reduce IntOp.andi x v reducesTo_S12x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S10000x12 : Shape := ⟨2, ![10000, 12]⟩
abbrev S10000x10000 : Shape := ⟨2, ![10000, 10000]⟩
abbrev S12x16 : Shape := ⟨2, ![12, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S10000x16 : Shape := ⟨2, ![10000, 16]⟩
abbrev S1x16 : Shape := ⟨2, ![1, 16]⟩
abbrev S400x10000 : Shape := ⟨2, ![400, 10000]⟩
abbrev S400x16 : Shape := ⟨2, ![400, 16]⟩
abbrev S400x12 : Shape := ⟨2, ![400, 12]⟩
abbrev S1x12 : Shape := ⟨2, ![1, 12]⟩

abbrev nBuf : Space → Nat
  | .hbm => 18
  | .vmem => 25
  | .smem => 0
  | _ => 0

abbrev bufTy : (tb : Table) → Fin (tcTables nBuf tb) → BufTy
  | .hbm, ⟨0, _⟩ => ⟨S10000x12, .f32⟩
  | .hbm, ⟨1, _⟩ => ⟨S10000x10000, .f32⟩
  | .hbm, ⟨2, _⟩ => ⟨S12x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x12, .f32⟩
  | .hbm, ⟨7, _⟩ => ⟨S12, .f32⟩
  | .hbm, ⟨8, _⟩ => ⟨S10000x16, .f32⟩
  | .hbm, ⟨9, _⟩ => ⟨S1x16, .f32⟩
  | .hbm, ⟨10, _⟩ => ⟨S10000x16, .f32⟩
  | .hbm, ⟨11, _⟩ => ⟨S10000x10000, .bf16⟩
  | .hbm, ⟨12, _⟩ => ⟨S10000x16, .bf16⟩
  | .hbm, ⟨13, _⟩ => ⟨S1x16, .f32⟩
  | .hbm, ⟨14, _⟩ => ⟨S10000x12, .f32⟩
  | .hbm, ⟨15, _⟩ => ⟨S10000x12, .bf16⟩
  | .hbm, ⟨16, _⟩ => ⟨S1x12, .f32⟩
  | .hbm, ⟨17, _⟩ => ⟨S10000x12, .f32⟩
  | .local _ .vmem, ⟨0, _⟩ => ⟨S10000x12, .f32⟩
  | .local _ .vmem, ⟨1, _⟩ => ⟨S12x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S1x16, .f32⟩
  | .local _ .vmem, ⟨7, _⟩ => ⟨S16x16, .f32⟩
  | .local _ .vmem, ⟨8, _⟩ => ⟨S400x16, .f32⟩
  | .local _ .vmem, ⟨9, _⟩ => ⟨S400x16, .f32⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x16, .bf16⟩
  | .local _ .vmem, ⟨15, _⟩ => ⟨S1x16, .f32⟩
  | .local _ .vmem, ⟨16, _⟩ => ⟨S16x12, .f32⟩
  | .local _ .vmem, ⟨17, _⟩ => ⟨S400x12, .f32⟩
  | .local _ .vmem, ⟨18, _⟩ => ⟨S400x12, .f32⟩
  | .local _ .vmem, ⟨19, _⟩ => ⟨S400x10000, .bf16⟩
  | .local _ .vmem, ⟨20, _⟩ => ⟨S400x10000, .bf16⟩
  | .local _ .vmem, ⟨21, _⟩ => ⟨S10000x12, .bf16⟩
  | .local _ .vmem, ⟨22, _⟩ => ⟨S1x12, .f32⟩
  | .local _ .vmem, ⟨23, _⟩ => ⟨S400x12, .f32⟩
  | .local _ .vmem, ⟨24, _⟩ => ⟨S400x12, .f32⟩
  | _, _ => ⟨S10000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x12 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x12 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x12 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x12 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x12 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x12_S10000x12_0_0 : ∀ a, (![0, 0] : Fin 2 → Nat) a + S10000x12.size a ≤ S10000x12.size a
  h_S10000x12 : 0 < S10000x12.numel
  inb_S12x16_S12x16_0_0 : ∀ a, (![0, 0] : Fin 2 → Nat) a + S12x16.size a ≤ S12x16.size a
  h_S12x16 : 0 < S12x16.numel
  inb_S10000x16_S10000x16_0_0 : ∀ a, (![0, 0] : Fin 2 → Nat) a + S10000x16.size a ≤ S10000x16.size a
  h_S10000x16 : 0 < S10000x16.numel
  shapeCasts_S16_S1x16 : S16.ShapeCasts S1x16
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x16_S16x16_0_0 : ∀ a, (![0, 0] : Fin 2 → Nat) a + S16x16.size a ≤ S16x16.size a
  h_S16x16 : 0 < S16x16.numel
  broadcasts_S1x16_S400x16 : S1x16.Broadcasts S400x16
  inb_S400x16_S400x16_0_0 : ∀ a, (![0, 0] : Fin 2 → Nat) a + S400x16.size a ≤ S400x16.size a
  h_S400x16 : 0 < S400x16.numel
  shapeCasts_S400x10000_S400x10000 : S400x10000.ShapeCasts S400x10000
  inb_S16x12_S16x12_0_0 : ∀ a, (![0, 0] : Fin 2 → Nat) a + S16x12.size a ≤ S16x12.size a
  h_S16x12 : 0 < S16x12.numel
  inb_S400x12_S400x12_0_0 : ∀ a, (![0, 0] : Fin 2 → Nat) a + S400x12.size a ≤ S400x12.size a
  h_S400x12 : 0 < S400x12.numel
  shapeCasts_S12_S1x12 : S12.ShapeCasts S1x12
  shapeCasts_S10000x12_S10000x12 : S10000x12.ShapeCasts S10000x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S400x12 : S1x12.Broadcasts S400x12
  dot_S10000x12_S12x16_S10000x16_1_0_0_1_n_n_wf : DotDims.WF S10000x12 S12x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  dot_S400x16_S16x12_S400x12_1_0_0_1_n_n_wf : DotDims.WF S400x16 S16x12 S400x12 [1] [0] [0] [1] [] []
  dot_S400x10000_S10000x12_S400x12_1_0_0_1_n_n_wf : DotDims.WF S400x10000 S10000x12 S400x12 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .bf16 = 32 ∨ (Rect.block (s := S10000x16) S10000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x12.size a ≤ S16x12.size a
  hwx2_3 : ∀ i : grid2.Coords, EltTy.bits .f32 = 32 ∨ (Rect.block (s := S16x12) S16x12.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x12.size a ≤ S10000x12.size a
  hwx2_4 : ∀ i : grid2.Coords, EltTy.bits .f32 = 32 ∨ (Rect.block (s := S10000x12) S400x12.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x12.size a ≤ S10000x12.size a
  hwx3_1 : ∀ i : grid3.Coords, EltTy.bits .bf16 = 32 ∨ (Rect.block (s := S10000x12) S10000x12.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x12.size a ≤ S1x12.size a
  hwx3_2 : ∀ i : grid3.Coords, EltTy.bits .f32 = 32 ∨ (Rect.block (s := S1x12) S1x12.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x12.size a ≤ S10000x12.size a
  hwx3_3 : ∀ i : grid3.Coords, EltTy.bits .f32 = 32 ∨ (Rect.block (s := S10000x12) S400x12.size (cc3_transform_3 i) (hinb3_3 i)).WholeWords (EltTy.packing .f32)

variable [Facts₀]

def dot_S10000x12_S12x16_S10000x16_1_0_0_1_n_n : DotDims S10000x12 S12x16 S10000x16 where
  lhsContracting := [1]
  rhsContracting := [0]
  lhsNonContracting := [0]
  rhsNonContracting := [1]
  lhsBatch := []
  rhsBatch := []
  wf := dot_S10000x12_S12x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf
def dot_S400x16_S16x12_S400x12_1_0_0_1_n_n : DotDims S400x16 S16x12 S400x12 where
  lhsContracting := [1]
  rhsContracting := [0]
  lhsNonContracting := [0]
  rhsNonContracting := [1]
  lhsBatch := []
  rhsBatch := []
  wf := dot_S400x16_S16x12_S400x12_1_0_0_1_n_n_wf
def dot_S400x10000_S10000x12_S400x12_1_0_0_1_n_n : DotDims S400x10000 S10000x12 S400x12 where
  lhsContracting := [1]
  rhsContracting := [0]
  lhsNonContracting := [0]
  rhsNonContracting := [1]
  lhsBatch := []
  rhsBatch := []
  wf := dot_S400x10000_S10000x12_S400x12_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x12.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S400x12.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S10000x12.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x12.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S400x12.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x12 : Shape := ⟨2, ![10000, 12]⟩
abbrev S10000x10000 : Shape := ⟨2, ![10000, 10000]⟩
abbrev S12x16 : Shape := ⟨2, ![12, 16]⟩
abbrev S16 : Shape := ⟨1, ![16]⟩
abbrev S16x16 : Shape := ⟨2, ![16, 16]⟩
abbrev S16x12 : Shape := ⟨2, ![16, 12]⟩
abbrev S12 : Shape := ⟨1, ![12]⟩
abbrev S10000x16 : Shape := ⟨2, ![10000, 16]⟩
abbrev S1x16 : Shape := ⟨2, ![1, 16]⟩
abbrev S_ : Shape := ⟨0, ![]⟩
abbrev S1x12 : Shape := ⟨2, ![1, 12]⟩

abbrev nBuf : Space → Nat
  | .hbm => 29
  | .vmem => 0
  | .smem => 0
  | _ => 0

abbrev bufTy : (tb : Table) → Fin (tcTables nBuf tb) → BufTy
  | .hbm, ⟨0, _⟩ => ⟨S10000x12, .f32⟩
  | .hbm, ⟨1, _⟩ => ⟨S10000x10000, .f32⟩
  | .hbm, ⟨2, _⟩ => ⟨S12x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x12, .f32⟩
  | .hbm, ⟨7, _⟩ => ⟨S12, .f32⟩
  | .hbm, ⟨8, _⟩ => ⟨S10000x16, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S1x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000x16, .f32⟩
  | .hbm, ⟨23, _⟩ => ⟨S10000x16, .f32⟩
  | .hbm, ⟨24, _⟩ => ⟨S10000x12, .f32⟩
  | .hbm, ⟨25, _⟩ => ⟨S10000x12, .f32⟩
  | .hbm, ⟨26, _⟩ => ⟨S1x12, .f32⟩
  | .hbm, ⟨27, _⟩ => ⟨S10000x12, .f32⟩
  | .hbm, ⟨28, _⟩ => ⟨S10000x12, .f32⟩
  | _, _ => ⟨S10000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S12_S1x12_1 : S12.BroadcastsInDim S1x12 (![1] : Fin 1 → Fin S1x12.rank)
  bcast_S1x12_S10000x12_0_1 : S1x12.BroadcastsInDim S10000x12 (![0, 1] : Fin 2 → Fin S10000x12.rank)
  dot_S10000x12_S12x16_S10000x16_1_0_0_1_n_n_wf : DotDims.WF S10000x12 S12x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []
  dot_S10000x16_S16x12_S10000x12_1_0_0_1_n_n_wf : DotDims.WF S10000x16 S16x12 S10000x12 [1] [0] [0] [1] [] []
  dot_S10000x10000_S10000x12_S10000x12_1_0_0_1_n_n_wf : DotDims.WF S10000x10000 S10000x12 S10000x12 [1] [0] [0] [1] [] []

variable [Facts₀]

def dot_S10000x12_S12x16_S10000x16_1_0_0_1_n_n : DotDims S10000x12 S12x16 S10000x16 where
  lhsContracting := [1]
  rhsContracting := [0]
  lhsNonContracting := [0]
  rhsNonContracting := [1]
  lhsBatch := []
  rhsBatch := []
  wf := dot_S10000x12_S12x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x12_S10000x12_1_0_0_1_n_n : DotDims S10000x16 S16x12 S10000x12 where
  lhsContracting := [1]
  rhsContracting := [0]
  lhsNonContracting := [0]
  rhsNonContracting := [1]
  lhsBatch := []
  rhsBatch := []
  wf := dot_S10000x16_S16x12_S10000x12_1_0_0_1_n_n_wf
def dot_S10000x10000_S10000x12_S10000x12_1_0_0_1_n_n : DotDims S10000x10000 S10000x12 S10000x12 where
  lhsContracting := [1]
  rhsContracting := [0]
  lhsNonContracting := [0]
  rhsNonContracting := [1]
  lhsBatch := []
  rhsBatch := []
  wf := dot_S10000x10000_S10000x12_S10000x12_1_0_0_1_n_n_wf

class Facts : Prop extends Facts₀ where

variable [Facts]
-- ==== Proof.Transport.lean ====
/- The buffer contents of @main between its four TensorCore regions.

   @main runs region 0, a reshape, region 1, a convert and a reshape, region 2, a convert and a reshape, region 3.
   The generated frame module folds the buffer contents through these seven segments (`Gen.W0 … Gen.W7`, read at
   the TensorCore's references as `Gen.V0 … Gen.V7`). This module reads that fold at the buffers the value claim
   needs: the result buffer `main_v8` at the end of the run, and every input array of regions 1, 2 and 3 at the
   region's entry, each in terms of an earlier region's output (`Dat.arrAt … N`) or of the launch memory `m`.

   Four kinds of step make up every chain. A region leaves a buffer that is none of its windows' arrays as it
   found it; it leaves an input window's array as entered; an output window's array holds the fold of its
   write-backs; a host stretch leaves every buffer it does not write as it found it, and its written buffer
   holds the operation's function of the operand's contents. -/
import proofs.«100273_g17944373363337_cont_8to1_1782_3_alg».proof.Proof.Gen.KernelIdeal.Frame
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretches over any contents

Each stretch is a literal list of one or two operations; over ANY contents `V` a buffer it does not write keeps
its contents, and a written buffer holds the operation's function of the operand's contents. These facts do
not depend on what `V` is, so each boundary's contents are an instance. -/

/-- The first stretch (the reshape of the first bias) writes `main_v1` only. -/
theorem host1_keeps (V : Valuation τ sig (Elt F)) (b : Ref sig .tc) (hb : b ≠ main_v1) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact StableHlo.devRef_ne_of_ne hb))
/-- The second stretch (the convert of region 1's first output, the reshape of the second bias) writes
    `main_v3` and `main_v4` only. -/
theorem host2_keeps (V : Valuation τ sig (Elt F)) (b : Ref sig .tc) (h3 : b ≠ main_v3) (h4 : b ≠ main_v4) :
    StableHlo.after hostOps2 V (Proc.devRef .tc b) = V (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h3, StableHlo.devRef_ne_of_ne h4⟩))
/-- The third stretch (the convert of region 2's output, the reshape of the third bias) writes `main_v6` and
    `main_v7` only. -/
theorem host3_keeps (V : Valuation τ sig (Elt F)) (b : Ref sig .tc) (h6 : b ≠ main_v6) (h7 : b ≠ main_v7) :
    StableHlo.after hostOps3 V (Proc.devRef .tc b) = V (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne h6, StableHlo.devRef_ne_of_ne h7⟩))

/-- After the first stretch `main_v1` holds the first bias (`main_arg3`, 16 entries) as a 1×16 array. -/
theorem host1_v1 (V : Valuation τ sig (Elt F)) :
    StableHlo.after hostOps1 V (Proc.devRef .tc main_v1)
      = shapeCast S1x16 (V (Proc.devRef .tc main_arg3)) shapeCasts_S16_S1x16 := by
  after_results; rfl
/-- After the second stretch `main_v3` holds `main_v2_0` rounded to bf16. -/
theorem host2_v3 (V : Valuation τ sig (Elt F)) :
    StableHlo.after hostOps2 V (Proc.devRef .tc main_v3)
      = truncf .bf16 (V (Proc.devRef .tc main_v2_0)) bitsLt_bf16_f32 := by
  after_results
/-- After the second stretch `main_v4` holds the second bias (`main_arg5`) as a 1×16 array. -/
theorem host2_v4 (V : Valuation τ sig (Elt F)) :
    StableHlo.after hostOps2 V (Proc.devRef .tc main_v4)
      = shapeCast S1x16 (V (Proc.devRef .tc main_arg5)) shapeCasts_S16_S1x16 := by
  after_results; rfl
/-- After the third stretch `main_v6` holds `main_v5` rounded to bf16. -/
theorem host3_v6 (V : Valuation τ sig (Elt F)) :
    StableHlo.after hostOps3 V (Proc.devRef .tc main_v6)
      = truncf .bf16 (V (Proc.devRef .tc main_v5)) bitsLt_bf16_f32 := by
  after_results
/-- After the third stretch `main_v7` holds the third bias (`main_arg7`, 12 entries) as a 1×12 array. -/
theorem host3_v7 (V : Valuation τ sig (Elt F)) :
    StableHlo.after hostOps3 V (Proc.devRef .tc main_v7)
      = shapeCast S1x12 (V (Proc.devRef .tc main_arg7)) shapeCasts_S12_S1x12 := by
  after_results; rfl

/-! ## Region 1's inputs, at its entry (`V2`) -/

/-- The adjacency `main_arg1`: region 0 has no window on it and the reshape does not write it. -/
theorem in1_adj (c : Dev nD) : V2 m ρ c main_arg1 = m ((c : Thread nD τ).loc main_arg1) :=
  calc W2 m ρ c (Proc.devRef .tc main_arg1)
    _ = W1 m ρ c (Proc.devRef .tc main_arg1) := host1_keeps _ main_arg1 (by decide)
    _ = W0 m ρ c (Proc.devRef .tc main_arg1) := W1_of_ne m ρ c main_arg1 (by decide)
    _ = m ((c : Thread nD τ).loc main_arg1) := rfl

/-- `main_v0` is region 0's output (window 2); the reshape does not write it. -/
theorem in1_s (c : Dev nD) : V2 m ρ c main_v0 = (dat0 (V0 m ρ) c).arrAt 2 cfg0.N :=
  calc W2 m ρ c (Proc.devRef .tc main_v0)
    _ = W1 m ρ c (Proc.devRef .tc main_v0) := host1_keeps _ main_v0 (by decide)
    _ = (dat0 (V0 m ρ) c).arrAt 2 cfg0.N := W1_arr m ρ c 2

/-- The first bias at region 0's exit is as launched: region 0 has no window on `main_arg3`. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

/-- `main_v1` is the reshape of the first bias as launched. -/
theorem in1_b (c : Dev nD) :
    V2 m ρ c main_v1 = shapeCast S1x16 (m ((c : Thread nD τ).loc main_arg3)) shapeCasts_S16_S1x16 :=
  calc W2 m ρ c (Proc.devRef .tc main_v1)
    _ = shapeCast S1x16 (W1 m ρ c (Proc.devRef .tc main_arg3)) shapeCasts_S16_S1x16 := host1_v1 _
    _ = shapeCast S1x16 (m ((c : Thread nD τ).loc main_arg3)) shapeCasts_S16_S1x16 := by rw [W1_main_arg3 m ρ c]

/-- The weight `main_arg4`: untouched before region 1. -/
theorem in1_w (c : Dev nD) : V2 m ρ c main_arg4 = m ((c : Thread nD τ).loc main_arg4) :=
  calc W2 m ρ c (Proc.devRef .tc main_arg4)
    _ = W1 m ρ c (Proc.devRef .tc main_arg4) := host1_keeps _ main_arg4 (by decide)
    _ = W0 m ρ c (Proc.devRef .tc main_arg4) := W1_of_ne m ρ c main_arg4 (by decide)
    _ = m ((c : Thread nD τ).loc main_arg4) := rfl

/-! ## Region 2's inputs, at its entry (`V4`) -/

/-- `main_v2_1` is region 1's second output (window 5); the second stretch does not write it. -/
theorem in2_adj (c : Dev nD) : V4 m ρ c main_v2_1 = (dat1 (V2 m ρ) c).arrAt 5 cfg1.N :=
  calc W4 m ρ c (Proc.devRef .tc main_v2_1)
    _ = W3 m ρ c (Proc.devRef .tc main_v2_1) := host2_keeps _ main_v2_1 (by decide) (by decide)
    _ = (dat1 (V2 m ρ) c).arrAt 5 cfg1.N := W3_arr m ρ c 5

/-- At region 1's exit `main_v2_0` is its first output (window 4). -/
theorem W3_main_v2_0 (c : Dev nD) : W3 m ρ c (Proc.devRef .tc main_v2_0) = (dat1 (V2 m ρ) c).arrAt 4 cfg1.N :=
  W3_arr m ρ c 4

/-- `main_v3` is region 1's first output rounded to bf16. -/
theorem in2_s (c : Dev nD) :
    V4 m ρ c main_v3 = truncf .bf16 ((dat1 (V2 m ρ) c).arrAt 4 cfg1.N) bitsLt_bf16_f32 :=
  calc W4 m ρ c (Proc.devRef .tc main_v3)
    _ = truncf .bf16 (W3 m ρ c (Proc.devRef .tc main_v2_0)) bitsLt_bf16_f32 := host2_v3 _
    _ = truncf .bf16 ((dat1 (V2 m ρ) c).arrAt 4 cfg1.N) bitsLt_bf16_f32 := by rw [W3_main_v2_0 m ρ c]

/-- The second bias at region 1's exit is as launched: no region so far has a window on `main_arg5` and the
    first stretch does not write it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := host1_keeps _ main_arg5 (by decide)
    _ = W0 m ρ c (Proc.devRef .tc main_arg5) := W1_of_ne m ρ c main_arg5 (by decide)
    _ = m ((c : Thread nD τ).loc main_arg5) := rfl

/-- `main_v4` is the reshape of the second bias as launched. -/
theorem in2_b (c : Dev nD) :
    V4 m ρ c main_v4 = shapeCast S1x16 (m ((c : Thread nD τ).loc main_arg5)) shapeCasts_S16_S1x16 :=
  calc W4 m ρ c (Proc.devRef .tc main_v4)
    _ = shapeCast S1x16 (W3 m ρ c (Proc.devRef .tc main_arg5)) shapeCasts_S16_S1x16 := host2_v4 _
    _ = shapeCast S1x16 (m ((c : Thread nD τ).loc main_arg5)) shapeCasts_S16_S1x16 := by rw [W3_main_arg5 m ρ c]

/-- The weight `main_arg6`: untouched before region 2. -/
theorem in2_w (c : Dev nD) : V4 m ρ c main_arg6 = m ((c : Thread nD τ).loc main_arg6) :=
  calc W4 m ρ c (Proc.devRef .tc main_arg6)
    _ = W3 m ρ c (Proc.devRef .tc main_arg6) := host2_keeps _ main_arg6 (by decide) (by decide)
    _ = W2 m ρ c (Proc.devRef .tc main_arg6) := W3_of_ne m ρ c main_arg6 (by decide)
    _ = W1 m ρ c (Proc.devRef .tc main_arg6) := host1_keeps _ main_arg6 (by decide)
    _ = W0 m ρ c (Proc.devRef .tc main_arg6) := W1_of_ne m ρ c main_arg6 (by decide)
    _ = m ((c : Thread nD τ).loc main_arg6) := rfl

/-! ## Region 3's inputs, at its entry (`V6`) -/

/-- `main_v2_1` is still region 1's second output: region 2 only reads it (its input window 0) and the third
    stretch does not write it. -/
theorem in3_adj (c : Dev nD) : V6 m ρ c main_v2_1 = (dat1 (V2 m ρ) c).arrAt 5 cfg1.N :=
  calc W6 m ρ c (Proc.devRef .tc main_v2_1)
    _ = W5 m ρ c (Proc.devRef .tc main_v2_1) := host3_keeps _ main_v2_1 (by decide) (by decide)
    _ = W4 m ρ c (Proc.devRef .tc main_v2_1) :=
          (W5_arr m ρ c 0).trans (((dat2 (V4 m ρ) c).arrAt_in 0 rfl _).trans (A_eq2 (V4 m ρ) c 0))
    _ = (dat1 (V2 m ρ) c).arrAt 5 cfg1.N := in2_adj m ρ c

/-- At region 2's exit `main_v5` is its output (window 4). -/
theorem W5_main_v5 (c : Dev nD) : W5 m ρ c (Proc.devRef .tc main_v5) = (dat2 (V4 m ρ) c).arrAt 4 cfg2.N :=
  W5_arr m ρ c 4

/-- `main_v6` is region 2's output rounded to bf16. -/
theorem in3_s (c : Dev nD) :
    V6 m ρ c main_v6 = truncf .bf16 ((dat2 (V4 m ρ) c).arrAt 4 cfg2.N) bitsLt_bf16_f32 :=
  calc W6 m ρ c (Proc.devRef .tc main_v6)
    _ = truncf .bf16 (W5 m ρ c (Proc.devRef .tc main_v5)) bitsLt_bf16_f32 := host3_v6 _
    _ = truncf .bf16 ((dat2 (V4 m ρ) c).arrAt 4 cfg2.N) bitsLt_bf16_f32 := by rw [W5_main_v5 m ρ c]

/-- The third bias at region 2's exit is as launched: no region so far has a window on `main_arg7` and neither
    earlier stretch writes it. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := host2_keeps _ main_arg7 (by decide) (by decide)
    _ = W2 m ρ c (Proc.devRef .tc main_arg7) := W3_of_ne m ρ c main_arg7 (by decide)
    _ = W1 m ρ c (Proc.devRef .tc main_arg7) := host1_keeps _ main_arg7 (by decide)
    _ = W0 m ρ c (Proc.devRef .tc main_arg7) := W1_of_ne m ρ c main_arg7 (by decide)
    _ = m ((c : Thread nD τ).loc main_arg7) := rfl

/-- `main_v7` is the reshape of the third bias as launched. -/
theorem in3_b (c : Dev nD) :
    V6 m ρ c main_v7 = shapeCast S1x12 (m ((c : Thread nD τ).loc main_arg7)) shapeCasts_S12_S1x12 :=
  calc W6 m ρ c (Proc.devRef .tc main_v7)
    _ = shapeCast S1x12 (W5 m ρ c (Proc.devRef .tc main_arg7)) shapeCasts_S12_S1x12 := host3_v7 _
    _ = shapeCast S1x12 (m ((c : Thread nD τ).loc main_arg7)) shapeCasts_S12_S1x12 := by rw [W5_main_arg7 m ρ c]

/-! ## The result buffer, at the end of the run (`W7`) -/

/-- The last region's output window 3 is `main_v8`, so at the end of the run it holds the fold of that
    window's write-backs. -/
theorem result_eq (c : Dev nD) : W7 m ρ c (Proc.devRef .tc main_v8) = (dat3 (V6 m ρ) c).arrAt 3 cfg3.N :=
  W7_arr m ρ c 3

/-! ## The run, with the result buffer named -/

set_option backward.isDefEq.respectTransparency.types false in
/-- At the compiled mesh, from any memory with zero counters, every weakly fair execution of @main on the
    TensorCores terminates, nothing faulting, and in every final state the result buffer `main_v8` holds the last
    boundary's contents `W7` at it and the argument arrays are as launched. The run is the launch over @main's seven
    segments; its last thread state says every unscoped buffer ends at `W7`, which is read at `main_v8` as it
    stands and at each argument back through the fold to the launch memory. -/
theorem run_result : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Hand

end
-- ==== Proof.Spec.lean ====
/-
  A three-layer graph convolution on the extended reals, entry by entry.

  One layer sends node features `h` (one row per node) to `adj · (h · W) + b`: the features are first mixed by the
  weight matrix `W`, then every node gathers the mixed features of all nodes weighted by its row of the adjacency
  matrix, and the bias row `b` is added to every row. Between layers every entry is clamped below at zero. The
  network is three layers with two clamps: `layer (relu (layer (relu (layer x W_in b_in)) W_hid b_hid)) W_out b_out`.

  Everything is stated at one entry: a product entry `(r, j)` is the sum over the contracted position `c` of
  `A[r,c] · B[c,j]`; the bias is read at the entry's column; the clamp is `max · 0`. No law of the extended reals is
  used anywhere: both programs compute these very sums in this very order of operations, the kernel with the feature
  mixing of the next layer done right after the previous layer's clamp, row block by row block.
-/
import Idealize.ShloMosaic.PureOps.Ideal
import Idealize.ShloMosaic.Lib.ValueIdx

noncomputable section

open scoped BigOperators

namespace Cert.Gcn

open Idealize.ShloMosaic Idealize.ShloMosaic.ValueIdx

/-- The matrix product, at an entry: row `r` of `A` against column `j` of `B`. The operands may be held in any
    float formats; on the extended reals a format is no restriction. -/
def mm {a k b : ℕ} {φ₁ φ₂ : FTy} (A : FVec Ideal ⟨2, ![a, k]⟩ φ₁) (B : FVec Ideal ⟨2, ![k, b]⟩ φ₂) :
    FVec Ideal ⟨2, ![a, b]⟩ .f32 :=
  fun i => ∑ c : Fin k, A (ix2 (i 0) c) * B (ix2 c (i 1))

theorem mm_apply {a k b : ℕ} {φ₁ φ₂ : FTy} (A : FVec Ideal ⟨2, ![a, k]⟩ φ₁) (B : FVec Ideal ⟨2, ![k, b]⟩ φ₂)
    (r : Fin a) (j : Fin b) : mm A B (ix2 r j) = ∑ c : Fin k, A (ix2 r c) * B (ix2 c j) := rfl

/-- A one-row matrix added to every row. -/
def addRow {a b : ℕ} (X : FVec Ideal ⟨2, ![a, b]⟩ .f32) (row : FVec Ideal ⟨2, ![1, b]⟩ .f32) :
    FVec Ideal ⟨2, ![a, b]⟩ .f32 :=
  fun i => X i + row (ix2 0 (i 1))

theorem addRow_apply {a b : ℕ} (X : FVec Ideal ⟨2, ![a, b]⟩ .f32) (row : FVec Ideal ⟨2, ![1, b]⟩ .f32)
    (r : Fin a) (j : Fin b) : addRow X row (ix2 r j) = X (ix2 r j) + row (ix2 0 j) := rfl

/-- A vector laid out as a one-row matrix. -/
def asRow {b : ℕ} (v : FVec Ideal ⟨1, ![b]⟩ .f32) : FVec Ideal ⟨2, ![1, b]⟩ .f32 :=
  fun i => v (ix1 (i 1))

theorem asRow_apply {b : ℕ} (v : FVec Ideal ⟨1, ![b]⟩ .f32) (z : Fin 1) (j : Fin b) :
    asRow v (ix2 z j) = v (ix1 j) := rfl

/-- Every entry clamped below at the value of the float zero. -/
def relu {a b : ℕ} (X : FVec Ideal ⟨2, ![a, b]⟩ .f32) : FVec Ideal ⟨2, ![a, b]⟩ .f32 :=
  fun i => max (X i) (Ideal.ofBits .f32 0x00000000#32)

theorem relu_apply {a b : ℕ} (X : FVec Ideal ⟨2, ![a, b]⟩ .f32) (r : Fin a) (j : Fin b) :
    relu X (ix2 r j) = max (X (ix2 r j)) (Ideal.ofBits .f32 0x00000000#32) := rfl

/-- A product's row is determined by the same row of its first operand: if row `p` of `X` is row `r` of `X'`, then
    row `p` of `X · B` is row `r` of `X' · B`. -/
theorem mm_row_congr {a a' k b : ℕ} {φ₁ φ₂ : FTy} (X : FVec Ideal ⟨2, ![a, k]⟩ φ₁) (X' : FVec Ideal ⟨2, ![a', k]⟩ φ₁)
    (B : FVec Ideal ⟨2, ![k, b]⟩ φ₂) (p : Fin a) (r : Fin a') (h : ∀ c : Fin k, X (ix2 p c) = X' (ix2 r c)) (q : Fin b) :
    mm X B (ix2 p q) = mm X' B (ix2 r q) := by
  rw [mm_apply, mm_apply]
  exact Finset.sum_congr rfl fun c _ => by rw [h c]

/-- Adding the same row matrix to equal entries gives equal entries. -/
theorem addRow_row_congr {a a' b : ℕ} (X : FVec Ideal ⟨2, ![a, b]⟩ .f32) (X' : FVec Ideal ⟨2, ![a', b]⟩ .f32)
    (row : FVec Ideal ⟨2, ![1, b]⟩ .f32) (p : Fin a) (r : Fin a') (q : Fin b) (h : X (ix2 p q) = X' (ix2 r q)) :
    addRow X row (ix2 p q) = addRow X' row (ix2 r q) := by
  rw [addRow_apply, addRow_apply, h]

/-- Clamping equal entries gives equal entries. -/
theorem relu_row_congr {a a' b : ℕ} (X : FVec Ideal ⟨2, ![a, b]⟩ .f32) (X' : FVec Ideal ⟨2, ![a', b]⟩ .f32)
    (p : Fin a) (r : Fin a') (q : Fin b) (h : X (ix2 p q) = X' (ix2 r q)) :
    relu X (ix2 p q) = relu X' (ix2 r q) := by
  rw [relu_apply, relu_apply, h]

/-- The same array with its entries held in another float format: the same extended reals. -/
def held {a b : ℕ} {φ : FTy} (ψ : FTy) (X : FVec Ideal ⟨2, ![a, b]⟩ φ) : FVec Ideal ⟨2, ![a, b]⟩ ψ := X

/-- One graph-convolution layer: `adj · (h · W) + b`. -/
def layer {n p q : ℕ} (adj : FVec Ideal ⟨2, ![n, n]⟩ .f32) (h : FVec Ideal ⟨2, ![n, p]⟩ .f32)
    (W : FVec Ideal ⟨2, ![p, q]⟩ .f32) (bias : FVec Ideal ⟨1, ![q]⟩ .f32) : FVec Ideal ⟨2, ![n, q]⟩ .f32 :=
  addRow (mm adj (mm h W)) (asRow bias)

/-- The network: three layers, a clamp after the first and after the second. -/
def net {n p h q : ℕ} (x : FVec Ideal ⟨2, ![n, p]⟩ .f32) (adj : FVec Ideal ⟨2, ![n, n]⟩ .f32)
    (W_in : FVec Ideal ⟨2, ![p, h]⟩ .f32) (b_in : FVec Ideal ⟨1, ![h]⟩ .f32)
    (W_hid : FVec Ideal ⟨2, ![h, h]⟩ .f32) (b_hid : FVec Ideal ⟨1, ![h]⟩ .f32)
    (W_out : FVec Ideal ⟨2, ![h, q]⟩ .f32) (b_out : FVec Ideal ⟨1, ![q]⟩ .f32) : FVec Ideal ⟨2, ![n, q]⟩ .f32 :=
  layer adj (relu (layer adj (relu (layer adj x W_in b_in)) W_hid b_hid)) W_out b_out

end Cert.Gcn

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.Payloads.lean ====
/-
  What each of the four kernel bodies stores, as a term of the graph convolution's operations over the blocks it loads.

  A body loads a block of rows of the adjacency matrix, the whole feature array of the previous stage, the bias as a
  one-row matrix and (but for the last body) the next layer's weight matrix. It multiplies the adjacency rows into the
  features (a matrix product accumulated into zero: the plain sum over the contracted position), adds the bias row to
  every row, clamps below at zero where a clamp follows the layer, and multiplies by the next layer's weights. Casts
  between equal shapes change nothing, and a change of float format changes nothing on the extended reals. So the
  stored block is that same composition of `mm`, `addRow`, `relu` applied to the loaded blocks: the block of rows of
  the stage's whole array, since each operation acts row by row on its first operand.
-/
import proofs.«100273_g17944373363337_cont_8to1_1782_3_alg».proof.Proof.Gen.KernelIdeal.Skeleton
import proofs.«100273_g17944373363337_cont_8to1_1782_3_alg».proof.Proof.Spec
import proofs.«100273_g17944373363337_cont_8to1_1782_3_alg».proof.Proof.LibPlainMatmul
import Idealize.ShloMosaic.Lib.Pipeline.Value
import Idealize.ShloMosaic.Lib.ValueLayout

noncomputable section

open scoped BigOperators

namespace Cert.Gcn

open Idealize.ShloMosaic Idealize.ShloMosaic.ValueIdx

/-- A matrix unit's plain product (rows against columns, no batch axis) into the zero array is the product `mm`. -/
theorem matmul_plain_eq_mm {a k b : ℕ} {φ₁ φ₂ : FTy} (d : DotDims ⟨2, ![a, k]⟩ ⟨2, ![k, b]⟩ ⟨2, ![a, b]⟩)
    (hd : d = DotDims.plain a k b) (prec : Option ContractPrecision)
    (A : FVec Ideal ⟨2, ![a, k]⟩ φ₁) (B : FVec Ideal ⟨2, ![k, b]⟩ φ₂) :
    matmul d prec A B (constant (F := Ideal) ⟨2, ![a, b]⟩ .f32 0x00000000#32) = mm A B := by
  subst hd
  funext i
  show FloatOps.matmul (DotDims.plain a k b) prec A B (constant (F := Ideal) ⟨2, ![a, b]⟩ .f32 0x00000000#32) i = _
  obtain ⟨r, j, rfl⟩ : ∃ (r : Fin a) (j : Fin b), i = ix2 r j := ⟨i 0, i 1, eq_ix2 i⟩
  rw [PlainMatmul.matmul_zero_apply, mm_apply]

/-- Adding a one-row matrix broadcast over the rows is `addRow`. -/
theorem addf_broadcastTo_eq_addRow {a b : ℕ} (X : FVec Ideal ⟨2, ![a, b]⟩ .f32) (row : FVec Ideal ⟨2, ![1, b]⟩ .f32)
    (h : (⟨2, ![1, b]⟩ : Shape).Broadcasts ⟨2, ![a, b]⟩) :
    addf X (broadcastTo ⟨2, ![a, b]⟩ row h) = addRow X row := by
  funext i
  obtain ⟨r, j, rfl⟩ : ∃ (r : Fin a) (j : Fin b), i = ix2 r j := ⟨i 0, i 1, eq_ix2 i⟩
  rw [addf_apply, broadcastTo_1b_ab_apply, addRow_apply]

/-- The maximum with the splat of the float zero is `relu`. -/
theorem maximumf_broadcast_zero_eq_relu {a b : ℕ} (X : FVec Ideal ⟨2, ![a, b]⟩ .f32) :
    maximumf X (broadcast ⟨2, ![a, b]⟩ (Scalar.ofBits (F := Ideal) .f32 0x00000000#32)) = relu X := rfl

end Cert.Gcn

namespace Cert.KernelIdeal.Layers

open Cert.KernelIdeal Cert.KernelIdeal.Gen Idealize.ShloMosaic Idealize.ShloMosaic.ValueIdx Cert.Gcn

variable [Cert.KernelIdeal.Facts]

/-- The prologue body stores the product of its two whole operands. -/
theorem pay0 (x : FVec Ideal S10000x12 .f32) (w : FVec Ideal S12x16 .f32) :
    k0_pay1 (F := Ideal) x w = mm x w := by
  unfold k0_pay1
  exact matmul_plain_eq_mm _ rfl none x w

/-- The first layer's body also stores its adjacency rows again, in the narrower format: the same extended reals. -/
theorem pay1_copy (a : FVec Ideal S400x10000 .f32) : k1_pay1 (F := Ideal) a = held .bf16 a := rfl

/-- The first layer's body: adjacency rows into the features, bias, clamp, next weights. -/
theorem pay1 (a : FVec Ideal S400x10000 .f32) (s : FVec Ideal S10000x16 .f32) (row : FVec Ideal S1x16 .f32)
    (w : FVec Ideal S16x16 .f32) :
    k1_pay2 (F := Ideal) a s row w = mm (relu (addRow (mm a s) row)) w := by
  unfold k1_pay2
  simp only [shapeCast_self]
  rw [matmul_plain_eq_mm dot_S400x10000_S10000x16_S400x16_1_0_0_1_n_n rfl none a s,
    addf_broadcastTo_eq_addRow, maximumf_broadcast_zero_eq_relu,
    matmul_plain_eq_mm dot_S400x16_S16x16_S400x16_1_0_0_1_n_n rfl none]

/-- The second layer's body: the same, from the narrower-format adjacency rows and features. -/
theorem pay2 (a : FVec Ideal S400x10000 .bf16) (s : FVec Ideal S10000x16 .bf16) (w : FVec Ideal S16x12 .f32)
    (row : FVec Ideal S1x16 .f32) :
    k2_pay1 (F := Ideal) a s w row = mm (relu (addRow (mm a s) row)) w := by
  unfold k2_pay1
  simp only [shapeCast_self]
  rw [matmul_plain_eq_mm dot_S400x10000_S10000x16_S400x16_1_0_0_1_n_n rfl none a s,
    addf_broadcastTo_eq_addRow, maximumf_broadcast_zero_eq_relu,
    matmul_plain_eq_mm dot_S400x16_S16x12_S400x12_1_0_0_1_n_n rfl none]

/-- The last layer's body: adjacency rows into the features, bias; no clamp, no further weights. -/
theorem pay3 (a : FVec Ideal S400x10000 .bf16) (s : FVec Ideal S10000x12 .bf16) (row : FVec Ideal S1x12 .f32) :
    k3_pay1 (F := Ideal) a s row = addRow (mm a s) row := by
  unfold k3_pay1
  simp only [shapeCast_self]
  rw [matmul_plain_eq_mm dot_S400x10000_S10000x12_S400x12_1_0_0_1_n_n rfl none a s, addf_broadcastTo_eq_addRow]

end Cert.KernelIdeal.Layers

end
-- ==== Proof.Region0.lean ====
/-
  The prologue region: the feature mixing of the first layer, `x · W_in`, as one whole-array product.

  The region has one point. It stages both operands whole, the body stores their product (a matrix product accumulated
  into zero: at an entry, the plain sum over the contracted position), and the one write-back covers the result array.
-/
import proofs.«100273_g17944373363337_cont_8to1_1782_3_alg».proof.Proof.Gen.KernelIdeal.Frame
import proofs.«100273_g17944373363337_cont_8to1_1782_3_alg».proof.Proof.Payloads
import Idealize.ShloMosaic.Lib.Pipeline.Value

noncomputable section

open scoped BigOperators

namespace Cert.KernelIdeal.Layers

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Every window of the region sits at block index zero on both axes, at its one point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The prologue's result: the input features times the first layer's weights. -/
def G0 (c : Dev nD) : FVec Ideal S10000x16 .f32 := mm (φ₁ := .f32) (φ₂ := .f32) (V c main_arg0) (V c main_arg2)

/-- The first operand's block is the whole array. -/
theorem blk0_x (c : Dev nD) (t : Fin cfg0.N) (r : Fin 10000) (k : Fin 12) :
    (iblk0 V c 0 t : FVec Ideal S10000x12 .f32) (ix2 r k) = (V c main_arg0 : FVec Ideal S10000x12 .f32) (ix2 r k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 10000 + 1 * r.val = r.val; rw [e0]; omega
  | ⟨1, _⟩ => show win0_0.index t (1 : Fin 2) * 12 + 1 * k.val = k.val; rw [e1]; omega

/-- The second operand's block is the whole array. -/
theorem blk0_w (c : Dev nD) (t : Fin cfg0.N) (k : Fin 12) (q : Fin 16) :
    (iblk0 V c 1 t : FVec Ideal S12x16 .f32) (ix2 k q) = (V c main_arg2 : FVec Ideal S12x16 .f32) (ix2 k q) := by
  obtain ⟨-, -, e0, e1, -⟩ := idx0 t
  unfold iblk0
  rw [View.read_apply]
  show V c main_arg2 _ = V c main_arg2 _
  refine congrArg _ (funext fun a => Fin.ext ?_)
  match a with
  | ⟨0, _⟩ => show win0_1.index t (0 : Fin 2) * 12 + 1 * k.val = k.val; rw [e0]; omega
  | ⟨1, _⟩ => show win0_1.index t (1 : Fin 2) * 16 + 1 * q.val = q.val; rw [e1]; omega

theorem blk0_x_eq (c : Dev nD) (t : Fin cfg0.N) : (iblk0 V c 0 t : FVec Ideal S10000x12 .f32) = V c main_arg0 :=
  funext fun i => by rw [eq_ix2 i]; exact blk0_x V c t _ _
theorem blk0_w_eq (c : Dev nD) (t : Fin cfg0.N) : (iblk0 V c 1 t : FVec Ideal S12x16 .f32) = V c main_arg2 :=
  funext fun i => by rw [eq_ix2 i]; exact blk0_w V c t _ _

/-- What the one point writes back is the whole product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S10000x12) hz0, View.ld_unit_zero (S := S12x16) hz0]
  rw [pay0, blk0_x_eq V c t, blk0_w_eq V c t]
  obtain ⟨-, -, -, -, e0, e1⟩ := idx0 t
  funext j
  have hj0 : (j 0).val < 10000 := (j 0).isLt
  have hj1 : (j 1).val < 16 := (j 1).isLt
  have he : ((cfg0.win 2).blk t).view.emb j = ix2 (⟨(j 0).val, hj0⟩ : Fin 10000) (⟨(j 1).val, hj1⟩ : Fin 16) := by
    funext a
    apply Fin.ext
    match a with
    | ⟨0, _⟩ => show win0_2.index t (0 : Fin 2) * 10000 + 1 * (j 0).val = (j 0).val; rw [e0]; omega
    | ⟨1, _⟩ => show win0_2.index t (1 : Fin 2) * 16 + 1 * (j 1).val = (j 1).val; rw [e1]; omega
  show mm (V c main_arg0) (V c main_arg2) (ix2 (⟨(j 0).val, hj0⟩ : Fin 10000) (⟨(j 1).val, hj1⟩ : Fin 16))
    = G0 V c (((cfg0.win 2).blk t).view.emb j)
  rw [he]
  rfl

/-- An index of the result is in the one block iff each coordinate is in range. -/
theorem mem_blk0 (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The result array when the region ends. -/
theorem final0 (c : Dev nD) : (dat0 V c).arrAt 2 cfg0.N = G0 V c :=
  (dat0 V c).arrAt_eq_of_cover 2 (G0 V c) (fun t _ => flushed0_eq V c t) fun i => by
    have hi0 : (i 0).val < 10000 := (i 0).isLt
    have hi1 : (i 1).val < 16 := (i 1).isLt
    have hN : cfg0.N = 1 := N_0
    refine ⟨⟨0, by rw [hN]; omega⟩, flush0_2 _, ?_⟩
    rw [mem_blk0]
    obtain ⟨-, -, -, -, e0, e1⟩ := idx0 ⟨0, by rw [hN]; omega⟩
    intro a
    match a with
    | ⟨0, _⟩ =>
      show win0_2.index _ (0 : Fin 2) * 10000 ≤ (i 0).val ∧ (i 0).val < win0_2.index _ (0 : Fin 2) * 10000 + 10000
      rw [e0]
      omega
    | ⟨1, _⟩ =>
      show win0_2.index _ (1 : Fin 2) * 16 ≤ (i 1).val ∧ (i 1).val < win0_2.index _ (1 : Fin 2) * 16 + 16
      rw [e1]
      omega

end Cert.KernelIdeal.Layers

end
-- ==== Proof.Region1.lean ====
/-
  The first layer's region: what its two result arrays hold when the region ends.

  The grid has 25 points. Point `t` stages rows `400·t … 400·t + 399` of the adjacency matrix, the whole feature
  array of the prologue, the bias row and the second layer's weights, and writes back two row blocks at `400·t`: the
  block `mm (relu (addRow (mm rows features) bias)) weights` of the first result, and the adjacency rows themselves,
  held in the narrower format, of the second. A product's row depends only on the same row of its first operand, and
  the bias and the clamp act entry by entry, so row `p` of the first block is row `400·t + p` of the whole-array
  composition; the second block is the same rows of the adjacency matrix. The 25 row blocks tile the 10000 rows of
  either result.
-/
import proofs.«100273_g17944373363337_cont_8to1_1782_3_alg».proof.Proof.Gen.KernelIdeal.Frame
import proofs.«100273_g17944373363337_cont_8to1_1782_3_alg».proof.Proof.Payloads
import Idealize.ShloMosaic.Lib.Pipeline.Value

noncomputable section

open scoped BigOperators

namespace Cert.KernelIdeal.Layers

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The region's index maps at every grid point: the adjacency window and both result windows sit at row block `t`,
    every other window at its whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The first result: the first layer clamped, already multiplied by the second layer's weights. -/
def G1a (c : Dev nD) : FVec Ideal S10000x16 .f32 :=
  mm (φ₁ := .f32) (φ₂ := .f32) (relu (addRow (mm (φ₁ := .f32) (φ₂ := .f32) (V c main_arg1) (V c main_v0)) (V c main_v1)))
    (V c main_arg4)

/-- The second result: the adjacency matrix, held in the narrower format. -/
def G1b (c : Dev nD) : FVec Ideal S10000x10000 .bf16 := held (φ := .f32) .bf16 (V c main_arg1)

/-- Entry `(p, k)` of the adjacency block at point `t` is entry `(400·t + p, k)` of the adjacency array. -/
theorem blk1_adj (c : Dev nD) (t : Fin cfg1.N) (p : Fin 400) (k : Fin 10000) (r : Fin 10000) (hr : r.val = t.val * 400 + p.val) :
    (iblk1 V c 0 t : FVec Ideal S400x10000 .f32) (ix2 p k) = (V c main_arg1 : FVec Ideal S10000x10000 .f32) (ix2 r k) := by
  obtain ⟨e0, e1, -⟩ := idx1 t
  unfold iblk1
  rw [View.read_apply]
  show V c main_arg1 _ = V c main_arg1 _
  refine congrArg _ (funext fun a => Fin.ext ?_)
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The feature block at every point is the whole feature array. -/
theorem blk1_feat (c : Dev nD) (t : Fin cfg1.N) (k : Fin 10000) (q : Fin 16) :
    (iblk1 V c 1 t : FVec Ideal S10000x16 .f32) (ix2 k q) = (V c main_v0 : FVec Ideal S10000x16 .f32) (ix2 k q) := by
  obtain ⟨-, -, e0, e1, -⟩ := idx1 t
  unfold iblk1
  rw [View.read_apply]
  show V c main_v0 _ = V c main_v0 _
  refine congrArg _ (funext fun a => Fin.ext ?_)
  match a with
  | ⟨0, _⟩ => show win1_1.index t (0 : Fin 2) * 10000 + 1 * k.val = k.val; rw [e0]; omega
  | ⟨1, _⟩ => show win1_1.index t (1 : Fin 2) * 16 + 1 * q.val = q.val; rw [e1]; omega

/-- The bias block at every point is the whole bias row. -/
theorem blk1_bias (c : Dev nD) (t : Fin cfg1.N) (z : Fin 1) (q : Fin 16) :
    (iblk1 V c 2 t : FVec Ideal S1x16 .f32) (ix2 z q) = (V c main_v1 : FVec Ideal S1x16 .f32) (ix2 z q) := by
  obtain ⟨-, -, -, -, e0, e1, -⟩ := idx1 t
  unfold iblk1
  rw [View.read_apply]
  show V c main_v1 _ = V c main_v1 _
  refine congrArg _ (funext fun a => Fin.ext ?_)
  match a with
  | ⟨0, _⟩ => show win1_2.index t (0 : Fin 2) * 1 + 1 * z.val = z.val; rw [e0]; omega
  | ⟨1, _⟩ => show win1_2.index t (1 : Fin 2) * 16 + 1 * q.val = q.val; rw [e1]; omega

/-- The weights block at every point is the whole weight matrix. -/
theorem blk1_w (c : Dev nD) (t : Fin cfg1.N) (k : Fin 16) (q : Fin 16) :
    (iblk1 V c 3 t : FVec Ideal S16x16 .f32) (ix2 k q) = (V c main_arg4 : FVec Ideal S16x16 .f32) (ix2 k q) := by
  obtain ⟨-, -, -, -, -, -, e0, e1, -⟩ := idx1 t
  unfold iblk1
  rw [View.read_apply]
  show V c main_arg4 _ = V c main_arg4 _
  refine congrArg _ (funext fun a => Fin.ext ?_)
  match a with
  | ⟨0, _⟩ => show win1_3.index t (0 : Fin 2) * 16 + 1 * k.val = k.val; rw [e0]; omega
  | ⟨1, _⟩ => show win1_3.index t (1 : Fin 2) * 16 + 1 * q.val = q.val; rw [e1]; omega

/-- The blocks that are whole arrays, as arrays. -/
theorem blk1_feat_eq (c : Dev nD) (t : Fin cfg1.N) : (iblk1 V c 1 t : FVec Ideal S10000x16 .f32) = V c main_v0 :=
  funext fun i => by rw [eq_ix2 i]; exact blk1_feat V c t _ _
theorem blk1_bias_eq (c : Dev nD) (t : Fin cfg1.N) : (iblk1 V c 2 t : FVec Ideal S1x16 .f32) = V c main_v1 :=
  funext fun i => by rw [eq_ix2 i]; exact blk1_bias V c t _ _
theorem blk1_w_eq (c : Dev nD) (t : Fin cfg1.N) : (iblk1 V c 3 t : FVec Ideal S16x16 .f32) = V c main_arg4 :=
  funext fun i => by rw [eq_ix2 i]; exact blk1_w V c t _ _

/-- What point `t` writes back to the first result is block `t` of the whole-array function. -/
theorem flushed1a_eq (c : Dev nD) (t : Fin cfg1.N) :
    (dat1 V c).flushed 4 t = ((cfg1.win 4).blk t).view.read (Elt Ideal) (G1a V c) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x16) hz1,
    View.ld_unit_zero (S := S1x16) hz1, View.ld_unit_zero (S := S16x16) hz1]
  rw [pay1, blk1_feat_eq V c t, blk1_bias_eq V c t, blk1_w_eq V c t]
  obtain ⟨-, -, -, -, -, -, -, -, e0, e1, -⟩ := idx1 t
  funext j
  have hN : t.val < 25 := t.isLt
  have hj0 : (j 0).val < 400 := (j 0).isLt
  have hj1 : (j 1).val < 16 := (j 1).isLt
  have he : ((cfg1.win 4).blk t).view.emb j = ix2 (⟨t.val * 400 + (j 0).val, by omega⟩ : Fin 10000) (⟨(j 1).val, hj1⟩ : Fin 16) := by
    funext a
    apply Fin.ext
    match a with
    | ⟨0, _⟩ => show win1_4.index t (0 : Fin 2) * 400 + 1 * (j 0).val = t.val * 400 + (j 0).val; rw [e0]; omega
    | ⟨1, _⟩ => show win1_4.index t (1 : Fin 2) * 16 + 1 * (j 1).val = (j 1).val; rw [e1]; omega
  show mm (relu (addRow (mm (iblk1 V c 0 t) (V c main_v0)) (V c main_v1))) (V c main_arg4)
      (ix2 (⟨(j 0).val, hj0⟩ : Fin 400) (⟨(j 1).val, hj1⟩ : Fin 16))
    = G1a V c (((cfg1.win 4).blk t).view.emb j)
  rw [he]
  unfold G1a
  refine mm_row_congr _ _ _ _ _ (fun k => ?_) _
  refine relu_row_congr _ _ _ _ _ ?_
  refine addRow_row_congr _ _ _ _ _ _ ?_
  exact mm_row_congr _ _ _ _ _ (fun k' => blk1_adj V c t _ k' _ rfl) _

/-- What point `t` writes back to the second result is block `t` of the adjacency matrix in the narrower format. -/
theorem flushed1b_eq (c : Dev nD) (t : Fin cfg1.N) :
    (dat1 V c).flushed 5 t = ((cfg1.win 5).blk t).view.read (Elt Ideal) (G1b V c) := by
  show (cfg1.win 5).cut (grid1.coords t) ((dat1 V c).after 5 t) = _
  rw [after1_5]
  unfold out1_5
  rw [View.canon_unit_zero hz1]
  simp only [View.ld_unit_zero (S := S400x10000) hz1]
  rw [pay1_copy]
  obtain ⟨-, -, -, -, -, -, -, -, -, -, e0, e1⟩ := idx1 t
  funext j
  have hN : t.val < 25 := t.isLt
  have hj0 : (j 0).val < 400 := (j 0).isLt
  have hj1 : (j 1).val < 10000 := (j 1).isLt
  have he : ((cfg1.win 5).blk t).view.emb j = ix2 (⟨t.val * 400 + (j 0).val, by omega⟩ : Fin 10000) (⟨(j 1).val, hj1⟩ : Fin 10000) := by
    funext a
    apply Fin.ext
    match a with
    | ⟨0, _⟩ => show win1_5.index t (0 : Fin 2) * 400 + 1 * (j 0).val = t.val * 400 + (j 0).val; rw [e0]; omega
    | ⟨1, _⟩ => show win1_5.index t (1 : Fin 2) * 10000 + 1 * (j 1).val = (j 1).val; rw [e1]; omega
  show (iblk1 V c 0 t : FVec Ideal S400x10000 .f32) j = G1b V c (((cfg1.win 5).blk t).view.emb j)
  rw [he]
  refine Eq.trans (congrArg (iblk1 V c 0 t : FVec Ideal S400x10000 .f32) ?_)
    (blk1_adj V c t ⟨(j 0).val, hj0⟩ ⟨(j 1).val, hj1⟩ ⟨t.val * 400 + (j 0).val, by omega⟩ rfl)
  funext a
  match a with
  | ⟨0, _⟩ => rfl
  | ⟨1, _⟩ => rfl

/-- An index of the first result is in point `t`'s block iff each coordinate is in the block's range. -/
theorem mem_blk1a (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v2_0).slice (win1_4.rect t)).set ↔ _
  rw [View.set_slice_whole, Rect.mem_set_unit]
  exact Iff.rfl

/-- The same for the second result. -/
theorem mem_blk1b (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v2_1).slice (win1_5.rect t)).set ↔ _
  rw [View.set_slice_whole, Rect.mem_set_unit]
  exact Iff.rfl

/-- The first result when the region ends: row `r` lies in the block of point `r / 400`. -/
theorem final1a (c : Dev nD) : (dat1 V c).arrAt 4 cfg1.N = G1a V c :=
  (dat1 V c).arrAt_eq_of_cover 4 (G1a V c) (fun t _ => flushed1a_eq V c t) fun i => by
    have hi0 : (i 0).val < 10000 := (i 0).isLt
    have hi1 : (i 1).val < 16 := (i 1).isLt
    have hN : cfg1.N = 25 := N_1
    refine ⟨⟨(i 0).val / 400, by rw [hN]; omega⟩, flush1_4 _, ?_⟩
    rw [mem_blk1a]
    obtain ⟨-, -, -, -, -, -, -, -, e0, e1, -⟩ := idx1 ⟨(i 0).val / 400, by rw [hN]; omega⟩
    intro a
    match a with
    | ⟨0, _⟩ =>
      show win1_4.index _ (0 : Fin 2) * 400 ≤ (i 0).val ∧ (i 0).val < win1_4.index _ (0 : Fin 2) * 400 + 400
      rw [e0]
      show (i 0).val / 400 * 400 ≤ (i 0).val ∧ (i 0).val < (i 0).val / 400 * 400 + 400
      omega
    | ⟨1, _⟩ =>
      show win1_4.index _ (1 : Fin 2) * 16 ≤ (i 1).val ∧ (i 1).val < win1_4.index _ (1 : Fin 2) * 16 + 16
      rw [e1]
      omega

/-- The second result when the region ends. -/
theorem final1b (c : Dev nD) : (dat1 V c).arrAt 5 cfg1.N = G1b V c :=
  (dat1 V c).arrAt_eq_of_cover 5 (G1b V c) (fun t _ => flushed1b_eq V c t) fun i => by
    have hi0 : (i 0).val < 10000 := (i 0).isLt
    have hi1 : (i 1).val < 10000 := (i 1).isLt
    have hN : cfg1.N = 25 := N_1
    refine ⟨⟨(i 0).val / 400, by rw [hN]; omega⟩, flush1_5 _, ?_⟩
    rw [mem_blk1b]
    obtain ⟨-, -, -, -, -, -, -, -, -, -, e0, e1⟩ := idx1 ⟨(i 0).val / 400, by rw [hN]; omega⟩
    intro a
    match a with
    | ⟨0, _⟩ =>
      show win1_5.index _ (0 : Fin 2) * 400 ≤ (i 0).val ∧ (i 0).val < win1_5.index _ (0 : Fin 2) * 400 + 400
      rw [e0]
      show (i 0).val / 400 * 400 ≤ (i 0).val ∧ (i 0).val < (i 0).val / 400 * 400 + 400
      omega
    | ⟨1, _⟩ =>
      show win1_5.index _ (1 : Fin 2) * 10000 ≤ (i 1).val ∧ (i 1).val < win1_5.index _ (1 : Fin 2) * 10000 + 10000
      rw [e1]
      omega

end Cert.KernelIdeal.Layers

end
-- ==== Proof.Region2.lean ====
/-
  The second layer's region: what its result array holds when the region ends.

  The grid has 25 points. Point `t` stages rows `400·t … 400·t + 399` of the adjacency matrix, the whole feature
  array, the bias row and the next layer's weight matrix, and writes back rows `400·t … 400·t + 399` of the result.
  The body's block is `mm (relu (addRow (mm rows features) bias)) weights`; row `p` of that block is row
  `400·t + p` of `mm (relu (addRow (mm adjacency features) bias)) weights`, because a product's row depends only on
  the same row of its first operand, and the bias and the clamp act entry by entry. The 25 row blocks tile the 10000
  rows, so the result array is that whole-array function.
-/
import proofs.«100273_g17944373363337_cont_8to1_1782_3_alg».proof.Proof.Gen.KernelIdeal.Frame
import proofs.«100273_g17944373363337_cont_8to1_1782_3_alg».proof.Proof.Payloads
import Idealize.ShloMosaic.Lib.Pipeline.Value

noncomputable section

open scoped BigOperators

namespace Cert.KernelIdeal.Layers

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The region's index maps at every grid point: the adjacency and result windows sit at row block `t`, every other
    window at its whole array. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The whole result array of the second layer, from the arrays the region finds. -/
def G2 (c : Dev nD) : FVec Ideal S10000x12 .f32 :=
  mm (φ₁ := .f32) (φ₂ := .f32) (relu (addRow (mm (φ₁ := .bf16) (φ₂ := .bf16) (V c main_v2_1) (V c main_v3)) (V c main_v4)))
    (V c main_arg6)

/-- Entry `(p, k)` of the adjacency block at point `t` is entry `(400·t + p, k)` of the adjacency array. -/
theorem blk2_adj (c : Dev nD) (t : Fin cfg2.N) (p : Fin 400) (k : Fin 10000) (r : Fin 10000) (hr : r.val = t.val * 400 + p.val) :
    (iblk2 V c 0 t : FVec Ideal S400x10000 .bf16) (ix2 p k) = (V c main_v2_1 : FVec Ideal S10000x10000 .bf16) (ix2 r k) := by
  obtain ⟨e0, e1, -⟩ := idx2 t
  unfold iblk2
  rw [View.read_apply]
  show V c main_v2_1 _ = V c main_v2_1 _
  refine congrArg _ (funext fun a => Fin.ext ?_)
  match a with
  | ⟨0, _⟩ => show win2_0.index t (0 : Fin 2) * 400 + 1 * p.val = r.val; rw [e0, hr]; omega
  | ⟨1, _⟩ => show win2_0.index t (1 : Fin 2) * 10000 + 1 * k.val = k.val; rw [e1]; omega

/-- The feature block at every point is the whole feature array. -/
theorem blk2_feat (c : Dev nD) (t : Fin cfg2.N) (k : Fin 10000) (q : Fin 16) :
    (iblk2 V c 1 t : FVec Ideal S10000x16 .bf16) (ix2 k q) = (V c main_v3 : FVec Ideal S10000x16 .bf16) (ix2 k q) := by
  obtain ⟨-, -, e0, e1, -⟩ := idx2 t
  unfold iblk2
  rw [View.read_apply]
  show V c main_v3 _ = V c main_v3 _
  refine congrArg _ (funext fun a => Fin.ext ?_)
  match a with
  | ⟨0, _⟩ => show win2_1.index t (0 : Fin 2) * 10000 + 1 * k.val = k.val; rw [e0]; omega
  | ⟨1, _⟩ => show win2_1.index t (1 : Fin 2) * 16 + 1 * q.val = q.val; rw [e1]; omega

/-- The bias block at every point is the whole bias row. -/
theorem blk2_bias (c : Dev nD) (t : Fin cfg2.N) (z : Fin 1) (q : Fin 16) :
    (iblk2 V c 2 t : FVec Ideal S1x16 .f32) (ix2 z q) = (V c main_v4 : FVec Ideal S1x16 .f32) (ix2 z q) := by
  obtain ⟨-, -, -, -, e0, e1, -⟩ := idx2 t
  unfold iblk2
  rw [View.read_apply]
  show V c main_v4 _ = V c main_v4 _
  refine congrArg _ (funext fun a => Fin.ext ?_)
  match a with
  | ⟨0, _⟩ => show win2_2.index t (0 : Fin 2) * 1 + 1 * z.val = z.val; rw [e0]; omega
  | ⟨1, _⟩ => show win2_2.index t (1 : Fin 2) * 16 + 1 * q.val = q.val; rw [e1]; omega

/-- The weight block at every point is the whole weight matrix. -/
theorem blk2_w (c : Dev nD) (t : Fin cfg2.N) (k : Fin 16) (q : Fin 12) :
    (iblk2 V c 3 t : FVec Ideal S16x12 .f32) (ix2 k q) = (V c main_arg6 : FVec Ideal S16x12 .f32) (ix2 k q) := by
  obtain ⟨-, -, -, -, -, -, e0, e1, -⟩ := idx2 t
  unfold iblk2
  rw [View.read_apply]
  show V c main_arg6 _ = V c main_arg6 _
  refine congrArg _ (funext fun a => Fin.ext ?_)
  match a with
  | ⟨0, _⟩ => show win2_3.index t (0 : Fin 2) * 16 + 1 * k.val = k.val; rw [e0]; omega
  | ⟨1, _⟩ => show win2_3.index t (1 : Fin 2) * 12 + 1 * q.val = q.val; rw [e1]; omega

/-- Entry `(p, k)` of the clamped hidden block at point `t` (adjacency rows into the features, bias, clamp) is entry
    `(400·t + p, k)` of the clamped hidden array: the sums run over the same terms, the bias entry is the same. -/
theorem hid2_entry (c : Dev nD) (t : Fin cfg2.N) (p : Fin 400) (r : Fin 10000) (hr : r.val = t.val * 400 + p.val) (k : Fin 16) :
    relu (addRow (mm (φ₁ := .bf16) (φ₂ := .bf16) (iblk2 V c 0 t : FVec Ideal S400x10000 .bf16)
        (iblk2 V c 1 t : FVec Ideal S10000x16 .bf16)) (iblk2 V c 2 t : FVec Ideal S1x16 .f32)) (ix2 p k)
      = relu (addRow (mm (φ₁ := .bf16) (φ₂ := .bf16) (V c main_v2_1) (V c main_v3)) (V c main_v4)) (ix2 r k) := by
  refine relu_row_congr _ _ p r k ?_
  rw [addRow_apply, addRow_apply, mm_apply, mm_apply, blk2_bias V c t]
  refine congrArg (· + _) (Finset.sum_congr rfl fun k' _ => ?_)
  rw [blk2_adj V c t p k' r hr, blk2_feat V c t]

/-- What point `t` writes back is block `t` of the whole-array function. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x16) hz2,
    View.ld_unit_zero (S := S16x12) hz2, View.ld_unit_zero (S := S1x16) hz2]
  rw [pay2]
  obtain ⟨-, -, -, -, -, -, -, -, e0, e1⟩ := idx2 t
  funext j
  have hN : t.val < 25 := t.isLt
  have hj0 : (j 0).val < 400 := (j 0).isLt
  have hj1 : (j 1).val < 12 := (j 1).isLt
  have he : ((cfg2.win 4).blk t).view.emb j = ix2 (⟨t.val * 400 + (j 0).val, by omega⟩ : Fin 10000) (⟨(j 1).val, hj1⟩ : Fin 12) := by
    funext a
    apply Fin.ext
    match a with
    | ⟨0, _⟩ => show win2_4.index t (0 : Fin 2) * 400 + 1 * (j 0).val = t.val * 400 + (j 0).val; rw [e0]; omega
    | ⟨1, _⟩ => show win2_4.index t (1 : Fin 2) * 12 + 1 * (j 1).val = (j 1).val; rw [e1]; omega
  show mm (φ₁ := .f32) (φ₂ := .f32) (relu (addRow (mm (φ₁ := .bf16) (φ₂ := .bf16) (iblk2 V c 0 t) (iblk2 V c 1 t))
        (iblk2 V c 2 t))) (iblk2 V c 3 t)
      (ix2 (⟨(j 0).val, hj0⟩ : Fin 400) (⟨(j 1).val, hj1⟩ : Fin 12))
    = G2 V c (((cfg2.win 4).blk t).view.emb j)
  rw [he]
  unfold G2
  rw [mm_apply, mm_apply]
  refine Finset.sum_congr rfl fun k _ => ?_
  rw [blk2_w V c t, hid2_entry V c t ⟨(j 0).val, hj0⟩ ⟨t.val * 400 + (j 0).val, by omega⟩ rfl k]

/-- An index of the result array is in point `t`'s block iff each coordinate is in the block's range. -/
theorem mem_blk2 (t : Fin cfg2.N) (i : S10000x12.Idx) :
    i ∈ ((cfg2.win 4).blk t).view.set ↔ ∀ a : Fin 2, win2_4.index t a * S400x12.size a ≤ (i a).val ∧ (i a).val < win2_4.index t a * S400x12.size a + S400x12.size a := by
  show i ∈ ((View.whole main_v5).slice (win2_4.rect t)).set ↔ _
  rw [View.set_slice_whole, Rect.mem_set_unit]
  exact Iff.rfl

/-- The result array when the region ends: row `r` lies in the block of point `r / 400`, so the 25 blocks cover it. -/
theorem final2 (c : Dev nD) : (dat2 V c).arrAt 4 cfg2.N = G2 V c :=
  (dat2 V c).arrAt_eq_of_cover 4 (G2 V c) (fun t _ => flushed2_eq V c t) fun i => by
    have hi0 : (i 0).val < 10000 := (i 0).isLt
    have hi1 : (i 1).val < 12 := (i 1).isLt
    have hN : cfg2.N = 25 := N_2
    refine ⟨⟨(i 0).val / 400, by rw [hN]; omega⟩, flush2_4 _, ?_⟩
    rw [mem_blk2]
    obtain ⟨-, -, -, -, -, -, -, -, e0, e1⟩ := idx2 ⟨(i 0).val / 400, by rw [hN]; omega⟩
    intro a
    match a with
    | ⟨0, _⟩ =>
      show win2_4.index _ (0 : Fin 2) * 400 ≤ (i 0).val ∧ (i 0).val < win2_4.index _ (0 : Fin 2) * 400 + 400
      rw [e0]
      show (i 0).val / 400 * 400 ≤ (i 0).val ∧ (i 0).val < (i 0).val / 400 * 400 + 400
      omega
    | ⟨1, _⟩ =>
      show win2_4.index _ (1 : Fin 2) * 12 ≤ (i 1).val ∧ (i 1).val < win2_4.index _ (1 : Fin 2) * 12 + 12
      rw [e1]
      omega

end Cert.KernelIdeal.Layers

end
-- ==== Proof.Region3.lean ====
/-
  The last layer's region: what its result array holds when the region ends.

  The grid has 25 points. Point `t` stages rows `400·t … 400·t + 399` of the adjacency matrix, the whole feature
  array, the bias row, and writes back rows `400·t … 400·t + 399` of the result. The body's block is
  `addRow (mm rows features) bias`; row `p` of that block is entry row `400·t + p` of
  `addRow (mm adjacency features) bias`, because a product's row depends only on the same row of its first operand.
  The 25 row blocks tile the 10000 rows, so the result array is that whole-array function.
-/
import proofs.«100273_g17944373363337_cont_8to1_1782_3_alg».proof.Proof.Gen.KernelIdeal.Frame
import proofs.«100273_g17944373363337_cont_8to1_1782_3_alg».proof.Proof.Payloads
import Idealize.ShloMosaic.Lib.Pipeline.Value

noncomputable section

open scoped BigOperators

namespace Cert.KernelIdeal.Layers

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The region's index maps at every grid point: the adjacency and result windows sit at row block `t`, every other
    window at its whole array. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The whole result array of the last layer, from the arrays the region finds. -/
def G3 (c : Dev nD) : FVec Ideal S10000x12 .f32 :=
  addRow (mm (φ₁ := .bf16) (φ₂ := .bf16) (V c main_v2_1) (V c main_v6)) (V c main_v7)

/-- Entry `(p, k)` of the adjacency block at point `t` is entry `(400·t + p, k)` of the adjacency array. -/
theorem blk3_adj (c : Dev nD) (t : Fin cfg3.N) (p : Fin 400) (k : Fin 10000) (r : Fin 10000) (hr : r.val = t.val * 400 + p.val) :
    (iblk3 V c 0 t : FVec Ideal S400x10000 .bf16) (ix2 p k) = (V c main_v2_1 : FVec Ideal S10000x10000 .bf16) (ix2 r k) := by
  obtain ⟨e0, e1, -⟩ := idx3 t
  unfold iblk3
  rw [View.read_apply]
  show V c main_v2_1 _ = V c main_v2_1 _
  refine congrArg _ (funext fun a => Fin.ext ?_)
  match a with
  | ⟨0, _⟩ => show win3_0.index t (0 : Fin 2) * 400 + 1 * p.val = r.val; rw [e0, hr]; omega
  | ⟨1, _⟩ => show win3_0.index t (1 : Fin 2) * 10000 + 1 * k.val = k.val; rw [e1]; omega

/-- The feature block at every point is the whole feature array. -/
theorem blk3_feat (c : Dev nD) (t : Fin cfg3.N) (k : Fin 10000) (q : Fin 12) :
    (iblk3 V c 1 t : FVec Ideal S10000x12 .bf16) (ix2 k q) = (V c main_v6 : FVec Ideal S10000x12 .bf16) (ix2 k q) := by
  obtain ⟨-, -, e0, e1, -⟩ := idx3 t
  unfold iblk3
  rw [View.read_apply]
  show V c main_v6 _ = V c main_v6 _
  refine congrArg _ (funext fun a => Fin.ext ?_)
  match a with
  | ⟨0, _⟩ => show win3_1.index t (0 : Fin 2) * 10000 + 1 * k.val = k.val; rw [e0]; omega
  | ⟨1, _⟩ => show win3_1.index t (1 : Fin 2) * 12 + 1 * q.val = q.val; rw [e1]; omega

/-- The bias block at every point is the whole bias row. -/
theorem blk3_bias (c : Dev nD) (t : Fin cfg3.N) (z : Fin 1) (q : Fin 12) :
    (iblk3 V c 2 t : FVec Ideal S1x12 .f32) (ix2 z q) = (V c main_v7 : FVec Ideal S1x12 .f32) (ix2 z q) := by
  obtain ⟨-, -, -, -, e0, e1, -⟩ := idx3 t
  unfold iblk3
  rw [View.read_apply]
  show V c main_v7 _ = V c main_v7 _
  refine congrArg _ (funext fun a => Fin.ext ?_)
  match a with
  | ⟨0, _⟩ => show win3_2.index t (0 : Fin 2) * 1 + 1 * z.val = z.val; rw [e0]; omega
  | ⟨1, _⟩ => show win3_2.index t (1 : Fin 2) * 12 + 1 * q.val = q.val; rw [e1]; omega

/-- What point `t` writes back is block `t` of the whole-array function. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S400x10000) hz3, View.ld_unit_zero (S := S10000x12) hz3, View.ld_unit_zero (S := S1x12) hz3]
  rw [pay3]
  obtain ⟨-, -, -, -, -, -, e0, e1⟩ := idx3 t
  funext j
  have hN : t.val < 25 := t.isLt
  have hj0 : (j 0).val < 400 := (j 0).isLt
  have hj1 : (j 1).val < 12 := (j 1).isLt
  have he : ((cfg3.win 3).blk t).view.emb j = ix2 (⟨t.val * 400 + (j 0).val, by omega⟩ : Fin 10000) (⟨(j 1).val, hj1⟩ : Fin 12) := by
    funext a
    apply Fin.ext
    match a with
    | ⟨0, _⟩ => show win3_3.index t (0 : Fin 2) * 400 + 1 * (j 0).val = t.val * 400 + (j 0).val; rw [e0]; omega
    | ⟨1, _⟩ => show win3_3.index t (1 : Fin 2) * 12 + 1 * (j 1).val = (j 1).val; rw [e1]; omega
  show addRow (mm (iblk3 V c 0 t) (iblk3 V c 1 t)) (iblk3 V c 2 t) (ix2 (⟨(j 0).val, hj0⟩ : Fin 400) (⟨(j 1).val, hj1⟩ : Fin 12))
    = G3 V c (((cfg3.win 3).blk t).view.emb j)
  rw [he]
  unfold G3
  rw [addRow_apply, addRow_apply, mm_apply, mm_apply, blk3_bias V c t]
  refine congrArg (· + _) (Finset.sum_congr rfl fun k _ => ?_)
  rw [blk3_adj V c t ⟨(j 0).val, hj0⟩ k ⟨t.val * 400 + (j 0).val, by omega⟩ rfl, blk3_feat V c t]

/-- An index of the result array is in point `t`'s block iff each coordinate is in the block's range. -/
theorem mem_blk3 (t : Fin cfg3.N) (i : S10000x12.Idx) :
    i ∈ ((cfg3.win 3).blk t).view.set ↔ ∀ a : Fin 2, win3_3.index t a * S400x12.size a ≤ (i a).val ∧ (i a).val < win3_3.index t a * S400x12.size a + S400x12.size a := by
  show i ∈ ((View.whole main_v8).slice (win3_3.rect t)).set ↔ _
  rw [View.set_slice_whole, Rect.mem_set_unit]
  exact Iff.rfl

/-- The result array when the region ends: row `r` lies in the block of point `r / 400`, so the 25 blocks cover it. -/
theorem final3 (c : Dev nD) : (dat3 V c).arrAt 3 cfg3.N = G3 V c :=
  (dat3 V c).arrAt_eq_of_cover 3 (G3 V c) (fun t _ => flushed3_eq V c t) fun i => by
    have hi0 : (i 0).val < 10000 := (i 0).isLt
    have hi1 : (i 1).val < 12 := (i 1).isLt
    have hN : cfg3.N = 25 := N_3
    refine ⟨⟨(i 0).val / 400, by rw [hN]; omega⟩, flush3_3 _, ?_⟩
    rw [mem_blk3]
    obtain ⟨-, -, -, -, -, -, e0, e1⟩ := idx3 ⟨(i 0).val / 400, by rw [hN]; omega⟩
    intro a
    match a with
    | ⟨0, _⟩ =>
      show win3_3.index _ (0 : Fin 2) * 400 ≤ (i 0).val ∧ (i 0).val < win3_3.index _ (0 : Fin 2) * 400 + 400
      rw [e0]
      show (i 0).val / 400 * 400 ≤ (i 0).val ∧ (i 0).val < (i 0).val / 400 * 400 + 400
      omega
    | ⟨1, _⟩ =>
      show win3_3.index _ (1 : Fin 2) * 12 ≤ (i 1).val ∧ (i 1).val < win3_3.index _ (1 : Fin 2) * 12 + 12
      rw [e1]
      omega

end Cert.KernelIdeal.Layers

end
-- ==== Proof.KernelValue.lean ====
/-
  The kernel's result array is the network `net` of its arguments.

  The four regions are chained through the buffers between them. The prologue leaves `x · W_in`. The first layer's
  region finds it, the adjacency matrix, the bias as a row and the second layer's weights, and leaves the first layer
  clamped and already multiplied by `W_hid`, beside a copy of the adjacency matrix in the narrower format. The second
  layer's region finds that copy, the first result converted to the narrower format, its bias and `W_out`, and leaves
  the second layer clamped and multiplied by `W_out`. The last region adds the last adjacency product and bias. On the
  extended reals a change of format is the identity and a vector cast to a one-row matrix is the vector read along the
  row, so the composition is, operation for operation, `layer (relu (layer (relu (layer x …)) …)) …`: each layer's feature
  mixing `h · W` is done at the end of the region before, which changes no sum.
-/
import proofs.«100273_g17944373363337_cont_8to1_1782_3_alg».proof.Proof.Transport
import proofs.«100273_g17944373363337_cont_8to1_1782_3_alg».proof.Proof.Region0
import proofs.«100273_g17944373363337_cont_8to1_1782_3_alg».proof.Proof.Region1
import proofs.«100273_g17944373363337_cont_8to1_1782_3_alg».proof.Proof.Region2
import proofs.«100273_g17944373363337_cont_8to1_1782_3_alg».proof.Proof.Region3
import Idealize.ShloMosaic.Lib.ValueLayout

noncomputable section

open scoped BigOperators

namespace Cert.Gcn

open Idealize.ShloMosaic Idealize.ShloMosaic.ValueIdx

/-- Holding the first operand in another format changes no product. -/
theorem mm_held_left {a k b : ℕ} {φ φ₂ : FTy} (ψ : FTy) (A : FVec Ideal ⟨2, ![a, k]⟩ φ) (B : FVec Ideal ⟨2, ![k, b]⟩ φ₂) :
    mm (held ψ A) B = mm A B := rfl

/-- Converting the second operand to a narrower format changes no product. -/
theorem mm_truncf_right {a k b : ℕ} {φ₁ φ ψ : FTy} (A : FVec Ideal ⟨2, ![a, k]⟩ φ₁) (B : FVec Ideal ⟨2, ![k, b]⟩ φ)
    (h : ψ.bits < φ.bits) : mm A (truncf ψ B h) = mm A B := rfl

/-- A vector cast to a one-row matrix is the vector laid out as a row. -/
theorem shapeCast_eq_asRow {b : ℕ} (v : FVec Ideal ⟨1, ![b]⟩ .f32) (h : (⟨1, ![b]⟩ : Shape).ShapeCasts ⟨2, ![1, b]⟩) :
    shapeCast ⟨2, ![1, b]⟩ v h = asRow v := by
  funext i
  obtain ⟨z, j, rfl⟩ : ∃ (z : Fin 1) (j : Fin b), i = ix2 z j := ⟨i 0, i 1, eq_ix2 i⟩
  rw [shapeCast_a_1a_apply, asRow_apply]

end Cert.Gcn

namespace Cert.KernelIdeal.Layers

open Cert.KernelIdeal Cert.KernelIdeal.Gen Idealize.ShloMosaic Idealize.ShloMosaic.TcCoe Idealize.SL.Sem
open Idealize.ShloMosaic.ValueIdx Cert.Gcn

variable (m : (ℓ : Loc nD τ sig) → Buf (Elt Ideal) ℓ) (ρ : Dev nD → PrngReg)

/-- The first layer, from the launch memory. -/
abbrev layer1 (c : Dev nD) : FVec Ideal S10000x16 .f32 :=
  layer (n := 10000) (p := 12) (q := 16) (m ((c : Thread nD τ).loc main_arg1)) (m ((c : Thread nD τ).loc main_arg0))
    (m ((c : Thread nD τ).loc main_arg2)) (m ((c : Thread nD τ).loc main_arg3))

/-- The second layer, from the launch memory. -/
abbrev layer2 (c : Dev nD) : FVec Ideal S10000x16 .f32 :=
  layer (n := 10000) (p := 16) (q := 16) (m ((c : Thread nD τ).loc main_arg1)) (relu (layer1 m c))
    (m ((c : Thread nD τ).loc main_arg4)) (m ((c : Thread nD τ).loc main_arg5))

/-- After the prologue: the first layer's feature mixing. -/
theorem stage0 (c : Dev nD) : V2 m ρ c main_v0
    = mm (φ₁ := .f32) (φ₂ := .f32) (m ((c : Thread nD τ).loc main_arg0)) (m ((c : Thread nD τ).loc main_arg2)) := by
  rw [Hand.in1_s, final0]
  rfl

/-- After the first layer's region, first result: the first layer clamped, times the second layer's weights. -/
theorem stage1a (c : Dev nD) : (dat1 (V2 m ρ) c).arrAt 4 cfg1.N
    = mm (φ₁ := .f32) (φ₂ := .f32) (relu (layer1 m c)) (m ((c : Thread nD τ).loc main_arg4)) := by
  rw [final1a]
  unfold G1a
  rw [Hand.in1_adj, stage0, Hand.in1_b, Hand.in1_w, shapeCast_eq_asRow]
  rfl

/-- After the first layer's region, second result: the adjacency matrix in the narrower format. -/
theorem stage1b (c : Dev nD) : (dat1 (V2 m ρ) c).arrAt 5 cfg1.N
    = held (φ := .f32) .bf16 (m ((c : Thread nD τ).loc main_arg1)) := by
  rw [final1b]
  unfold G1b
  rw [Hand.in1_adj]

/-- After the second layer's region: the second layer clamped, times the last layer's weights. -/
theorem stage2 (c : Dev nD) : (dat2 (V4 m ρ) c).arrAt 4 cfg2.N
    = mm (φ₁ := .f32) (φ₂ := .f32) (relu (layer2 m c)) (m ((c : Thread nD τ).loc main_arg6)) := by
  rw [final2]
  unfold G2
  rw [Hand.in2_adj, stage1b, Hand.in2_s, stage1a, Hand.in2_b, Hand.in2_w, shapeCast_eq_asRow, mm_held_left, mm_truncf_right]
  rfl

/-- After the last region: the network. -/
theorem stage3 (c : Dev nD) : (dat3 (V6 m ρ) c).arrAt 3 cfg3.N
    = net (n := 10000) (p := 12) (h := 16) (q := 12) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [final3]
  unfold G3
  rw [Hand.in3_adj, stage1b, Hand.in3_s, stage2, Hand.in3_b, shapeCast_eq_asRow, mm_held_left, mm_truncf_right]
  rfl

/-- The kernel's run: the result array at the network of the arguments, the arguments unchanged. -/
theorem run : θ_run defs (onTc (τ := τ) (main (F := Ideal))) ⟨m, fun _ => 0, ρ⟩ (fun r => ∀ c : Dev nD,
      r.2.mem ((c.tc : Thread nD τ).loc main_v8)
        = net (n := 10000) (p := 12) (h := 16) (q := 12) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((Hand.result_eq m ρ c).trans (stage3 m ρ c)), (h c).2⟩)
    (Hand.run_result (F := Ideal) m ρ)

end Cert.KernelIdeal.Layers

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«100273_g17944373363337_cont_8to1_1782_3_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.RefValue.lean ====
/-
  The reference program's result is the network `net` of its arguments.

  The reference applies, on whole arrays: a host matrix product (at an entry, the plain sum over the contracted position:
  the product `mm`), the bias broadcast first to a one-row matrix and then over all rows and added (`addRow` of the bias
  laid out as a row), and the maximum with a splat of the float zero (`relu`). Its result term is three layers of
  these, the very composition `net` names.
-/
import proofs.«100273_g17944373363337_cont_8to1_1782_3_alg».proof.Defs
import proofs.«100273_g17944373363337_cont_8to1_1782_3_alg».proof.Proof.Gen.ReferenceIdeal.Run
import proofs.«100273_g17944373363337_cont_8to1_1782_3_alg».proof.Proof.Spec
import proofs.«100273_g17944373363337_cont_8to1_1782_3_alg».proof.Proof.LibPlainDot
import Idealize.ShloMosaic.Lib.Pipeline.Value
import Idealize.ShloMosaic.Lib.ValueLayout

noncomputable section

open scoped BigOperators

namespace Cert.Gcn

open Idealize.ShloMosaic Idealize.ShloMosaic.ValueIdx

/-- The host's plain product (rows against columns, no batch axis) is the product `mm`. -/
theorem dotGeneral_plain_eq_mm {a k b : ℕ} {φ₁ φ₂ : FTy} (d : DotDims ⟨2, ![a, k]⟩ ⟨2, ![k, b]⟩ ⟨2, ![a, b]⟩)
    (hd : d = DotDims.plain a k b) (prec : Option ContractPrecision)
    (A : FVec Ideal ⟨2, ![a, k]⟩ φ₁) (B : FVec Ideal ⟨2, ![k, b]⟩ φ₂) :
    Host.dotGeneral d prec A B = mm A B := by
  subst hd
  funext i
  obtain ⟨r, j, rfl⟩ : ∃ (r : Fin a) (j : Fin b), i = ix2 r j := ⟨i 0, i 1, eq_ix2 i⟩
  exact (PlainDot.dotGeneral_apply_entry prec _ A B r j).trans (mm_apply A B r j).symm

/-- A vector broadcast to a one-row matrix and then over the rows, added: `addRow` of the vector as a row. -/
theorem addf_broadcastInDim_eq_addRow {a b : ℕ} (X : FVec Ideal ⟨2, ![a, b]⟩ .f32) (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) :
    addf X (broadcastInDim ⟨2, ![a, b]⟩ ![0, 1] h2 (broadcastInDim ⟨2, ![1, b]⟩ ![1] h1 v)) = addRow X (asRow v) := by
  funext i
  obtain ⟨r, j, rfl⟩ : ∃ (r : Fin a) (j : Fin b), i = ix2 r j := ⟨i 0, i 1, eq_ix2 i⟩
  rw [addf_apply, addRow_apply, asRow_apply]
  refine congrArg (X (ix2 r j) + ·) ?_
  refine (broadcastInDim_apply _ h2 _ (ix2 r j) (ix2 (0 : Fin 1) j) fun ax => ?_).trans
    (broadcastInDim_apply _ h1 v (ix2 (0 : Fin 1) j) (ix1 j) fun ax => ?_)
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- The maximum with the float zero broadcast from a scalar is `relu`. -/
theorem maximumf_broadcastInDim_zero_eq_relu {a b : ℕ} (X : FVec Ideal ⟨2, ![a, b]⟩ .f32)
    (h : (⟨0, ![]⟩ : Shape).BroadcastsInDim ⟨2, ![a, b]⟩ ![]) :
    maximumf X (broadcastInDim ⟨2, ![a, b]⟩ ![] h (constant (F := Ideal) ⟨0, ![]⟩ .f32 0x00000000#32)) = relu X := by
  funext i
  show max (X i) _ = max (X i) _
  rw [broadcastInDim_apply _ h _ i ix0 fun ax => ax.elim0]
  rfl

end Cert.Gcn

namespace Cert.ReferenceIdeal.RefValue

open Cert.ReferenceIdeal Cert.ReferenceIdeal.Gen Idealize.ShloMosaic Idealize.ShloMosaic.TcCoe Idealize.SL.Sem Cert.Gcn

variable [Cert.ReferenceIdeal.Facts]

/-- The reference run's result term is the network of the argument arrays. -/
theorem result_eq (x : FVec Ideal S10000x12 .f32) (adj : FVec Ideal S10000x10000 .f32)
    (W_in : FVec Ideal S12x16 .f32) (b_in : FVec Ideal S16 .f32) (W_hid : FVec Ideal S16x16 .f32) (b_hid : FVec Ideal S16 .f32)
    (W_out : FVec Ideal S16x12 .f32) (b_out : FVec Ideal S12 .f32) :
    addf (Host.dotGeneral dot_S10000x10000_S10000x12_S10000x12_1_0_0_1_n_n none adj (Host.dotGeneral dot_S10000x16_S16x12_S10000x12_1_0_0_1_n_n none (maximumf (addf (Host.dotGeneral dot_S10000x10000_S10000x16_S10000x16_1_0_0_1_n_n none adj (Host.dotGeneral dot_S10000x16_S16x16_S10000x16_1_0_0_1_n_n none (maximumf (addf (Host.dotGeneral dot_S10000x10000_S10000x16_S10000x16_1_0_0_1_n_n none adj (Host.dotGeneral dot_S10000x12_S12x16_S10000x16_1_0_0_1_n_n none x W_in)) (broadcastInDim S10000x16 ![0, 1] bcast_S1x16_S10000x16_0_1 (broadcastInDim S1x16 ![1] bcast_S16_S1x16_1 b_in))) (broadcastInDim S10000x16 ![] bcast_S_S10000x16 (constant (F := Ideal) S_ .f32 0x00000000#32))) W_hid)) (broadcastInDim S10000x16 ![0, 1] bcast_S1x16_S10000x16_0_1 (broadcastInDim S1x16 ![1] bcast_S16_S1x16_1 b_hid))) (broadcastInDim S10000x16 ![] bcast_S_S10000x16 (constant (F := Ideal) S_ .f32 0x00000000#32))) W_out)) (broadcastInDim S10000x12 ![0, 1] bcast_S1x12_S10000x12_0_1 (broadcastInDim S1x12 ![1] bcast_S12_S1x12_1 b_out))
      = net x adj W_in b_in W_hid b_hid W_out b_out := by
  rw [dotGeneral_plain_eq_mm dot_S10000x12_S12x16_S10000x16_1_0_0_1_n_n rfl,
    dotGeneral_plain_eq_mm dot_S10000x10000_S10000x16_S10000x16_1_0_0_1_n_n rfl,
    addf_broadcastInDim_eq_addRow, maximumf_broadcastInDim_zero_eq_relu,
    dotGeneral_plain_eq_mm dot_S10000x16_S16x16_S10000x16_1_0_0_1_n_n rfl,
    dotGeneral_plain_eq_mm dot_S10000x10000_S10000x16_S10000x16_1_0_0_1_n_n rfl,
    addf_broadcastInDim_eq_addRow, maximumf_broadcastInDim_zero_eq_relu,
    dotGeneral_plain_eq_mm dot_S10000x16_S16x12_S10000x12_1_0_0_1_n_n rfl,
    dotGeneral_plain_eq_mm dot_S10000x10000_S10000x12_S10000x12_1_0_0_1_n_n rfl,
    addf_broadcastInDim_eq_addRow]
  rfl

end Cert.ReferenceIdeal.RefValue

end
-- ==== Proof.lean ====
/-
  A three-layer dense graph convolution, `adj · (h · W) + b` per layer with a clamp at zero after the first two, as a
  TPU program of four kernels against the plain array program.

  Both idealized programs compute, on the extended reals, the same composition of the same sums in the same order of
  operations (`Cert.Gcn.net`, Proof/Spec.lean): the kernel program moves each layer's feature mixing `h · W` to the
  end of the kernel before, works on blocks of 400 rows of the adjacency matrix, and keeps a copy of that matrix and
  of the intermediate features in a narrower float format, which on the extended reals is the identity. No algebraic
  law and no finiteness of the inputs is used.

  * Proof/Spec.lean — the network, entry by entry; a product's row depends only on that row of its first operand.
  * Proof/LibPlainMatmul.lean, Proof/LibPlainDot.lean — the matrix unit's and the host's plain products as sums at an entry.
  * Proof/Payloads.lean — what each kernel body stores, as a term of the network's operations over its loaded blocks.
  * Proof/Region0.lean … Region3.lean — each kernel's result arrays as whole-array functions of the arrays it finds.
  * Proof/Transport.lean — the program's run with its result buffer named, and what each kernel finds in its inputs.
  * Proof/KernelValue.lean — the chain: the kernel program's result is `net` of the arguments.
  * Proof/RefValue.lean — the reference's result is `net` of the arguments.
  The frames of the two kernel programs are the generated ones; the reference's frame is its generated run with the
  result dropped; the idealization rewrote nothing, so `preserves` holds trivially.
-/
import proofs.«100273_g17944373363337_cont_8to1_1782_3_alg».proof.Defs
import proofs.«100273_g17944373363337_cont_8to1_1782_3_alg».proof.Proof.Gen.Kernel
import proofs.«100273_g17944373363337_cont_8to1_1782_3_alg».proof.Proof.Gen.Kernel.Frame
import proofs.«100273_g17944373363337_cont_8to1_1782_3_alg».proof.Proof.Gen.KernelIdeal
import proofs.«100273_g17944373363337_cont_8to1_1782_3_alg».proof.Proof.Gen.KernelIdeal.Frame
import proofs.«100273_g17944373363337_cont_8to1_1782_3_alg».proof.Proof.Gen.ReferenceIdeal
import proofs.«100273_g17944373363337_cont_8to1_1782_3_alg».proof.Proof.Gen.ReferenceIdeal.Run
import proofs.«100273_g17944373363337_cont_8to1_1782_3_alg».proof.Proof.Gen.Pre_finite_inputs
import proofs.«100273_g17944373363337_cont_8to1_1782_3_alg».proof.Proof.KernelValue
import proofs.«100273_g17944373363337_cont_8to1_1782_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨_, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
